-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x1600000 : Shape := ⟨2, ![2, 1600000]⟩
abbrev S4x64 : Shape := ⟨2, ![4, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x4 .f32) (main_arg1 : IVec S2x1600000 32) (main_arg2 : FVec F S4x64 .f32) (main_arg3 : FVec F S64 .f32) (main_arg4 : FVec F S64x64 .f32) (main_arg5 : FVec F S64 .f32) (main_arg6 : FVec F S64x1 .f32) (main_arg7 : FVec F S1 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S4x64 .f32 := Host.absf main_arg2
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x4 : Shape := ⟨2, ![100000, 4]⟩
abbrev S2x1600000 : Shape := ⟨2, ![2, 1600000]⟩
abbrev S4x64 : Shape := ⟨2, ![4, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x4 : Shape := ⟨2, ![10000, 4]⟩
abbrev S10000x64 : Shape := ⟨2, ![10000, 64]⟩
abbrev S1700000x64 : Shape := ⟨2, ![1700000, 64]⟩
abbrev S1x64 : Shape := ⟨2, ![1, 64]⟩
abbrev S1x1 : Shape := ⟨2, ![1, 1]⟩
abbrev S100000x1 : Shape := ⟨2, ![100000, 1]⟩
abbrev S10000x1 : Shape := ⟨2, ![10000, 1]⟩

abbrev nBuf : Space → Nat
  | .hbm => 80
  | .vmem => 18
  | .smem => 0
  | _ => 0

abbrev bufTy : (tb : Table) → Fin (tcTables nBuf tb) → BufTy
  | .hbm, ⟨0, _⟩ => ⟨S100000x4, .f32⟩
  | .hbm, ⟨1, _⟩ => ⟨S2x1600000, .i32⟩
  | .hbm, ⟨2, _⟩ => ⟨S4x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S100000x64, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x64, .f32⟩
  | .hbm, ⟨51, _⟩ => ⟨S1700000x1, .f32⟩
  | .hbm, ⟨52, _⟩ => ⟨S1700000x64, .f32⟩
  | .hbm, ⟨53, _⟩ => ⟨S1700000x64, .f32⟩
  | .hbm, ⟨54, _⟩ => ⟨S_, .f32⟩
  | .hbm, ⟨55, _⟩ => ⟨S100000x64, .f32⟩
  | .hbm, ⟨56, _⟩ => ⟨S1700000x1, .i32⟩
  | .hbm, ⟨57, _⟩ => ⟨S100000x64, .f32⟩
  | .hbm, ⟨58, _⟩ => ⟨S1x64, .f32⟩
  | .hbm, ⟨59, _⟩ => ⟨S100000x64, .f32⟩
  | .hbm, ⟨60, _⟩ => ⟨S_, .i32⟩
  | .hbm, ⟨61, _⟩ => ⟨S1700000, .i32⟩
  | .hbm, ⟨62, _⟩ => ⟨S1700000, .i1⟩
  | .hbm, ⟨63, _⟩ => ⟨S_, .i32⟩
  | .hbm, ⟨64, _⟩ => ⟨S1700000, .i32⟩
  | .hbm, ⟨65, _⟩ => ⟨S1700000, .i32⟩
  | .hbm, ⟨66, _⟩ => ⟨S1700000, .i32⟩
  | .hbm, ⟨67, _⟩ => ⟨S1700000x1, .i32⟩
  | .hbm, ⟨68, _⟩ => ⟨S1700000x64, .f32⟩
  | .hbm, ⟨69, _⟩ => ⟨S1700000x1, .f32⟩
  | .hbm, ⟨70, _⟩ => ⟨S1700000x64, .f32⟩
  | .hbm, ⟨71, _⟩ => ⟨S1700000x64, .f32⟩
  | .hbm, ⟨72, _⟩ => ⟨S_, .f32⟩
  | .hbm, ⟨73, _⟩ => ⟨S100000x64, .f32⟩
  | .hbm, ⟨74, _⟩ => ⟨S1700000x1, .i32⟩
  | .hbm, ⟨75, _⟩ => ⟨S100000x64, .f32⟩
  | .hbm, ⟨76, _⟩ => ⟨S1x64, .f32⟩
  | .hbm, ⟨77, _⟩ => ⟨S1x1, .f32⟩
  | .hbm, ⟨78, _⟩ => ⟨S100000x1, .f32⟩
  | .hbm, ⟨79, _⟩ => ⟨S100000, .f32⟩
  | .local _ .vmem, ⟨0, _⟩ => ⟨S10000x4, .f32⟩
  | .local _ .vmem, ⟨1, _⟩ => ⟨S10000x4, .f32⟩
  | .local _ .vmem, ⟨2, _⟩ => ⟨S4x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x1, .f32⟩
  | .local _ .vmem, ⟨15, _⟩ => ⟨S1x1, .f32⟩
  | .local _ .vmem, ⟨16, _⟩ => ⟨S10000x1, .f32⟩
  | .local _ .vmem, ⟨17, _⟩ => ⟨S10000x1, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_7 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x4_S10000x4_0_0 : ∀ a, (![0, 0] : Fin 2 → Nat) a + S10000x4.size a ≤ S10000x4.size a
  h_S10000x4 : 0 < S10000x4.numel
  bitsLt_bf16_f32 : FTy.bits .bf16 < FTy.bits .f32
  inb_S4x64_S4x64_0_0 : ∀ a, (![0, 0] : Fin 2 → Nat) a + S4x64.size a ≤ S4x64.size a
  h_S4x64 : 0 < S4x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x4_S4x64_S10000x64_1_0_0_1_n_n_wf : DotDims.WF S10000x4 S4x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x4.size a ≤ S100000x4.size a
  hwx0_0 : ∀ i : grid0.Coords, EltTy.bits .f32 = 32 ∨ (Rect.block (s := S100000x4) S10000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64.size a ≤ S4x64.size a
  hwx0_1 : ∀ i : grid0.Coords, EltTy.bits .f32 = 32 ∨ (Rect.block (s := S4x64) S4x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S64x1.size a
  hwx2_2 : ∀ i : grid2.Coords, EltTy.bits .f32 = 32 ∨ (Rect.block (s := S64x1) S64x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x1.size a ≤ S100000x1.size a
  hwx2_4 : ∀ i : grid2.Coords, EltTy.bits .f32 = 32 ∨ (Rect.block (s := S100000x1) S10000x1.size (cc2_transform_4 i) (hinb2_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x4_S4x64_S10000x64_1_0_0_1_n_n : DotDims S10000x4 S4x64 S10000x64 where
  lhsContracting := [1]
  rhsContracting := [0]
  lhsNonContracting := [0]
  rhsNonContracting := [1]
  lhsBatch := []
  rhsBatch := []
  wf := dot_S10000x4_S4x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_arg0) S10000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v55) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S10000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x4 : Shape := ⟨2, ![100000, 4]⟩
abbrev S2x1600000 : Shape := ⟨2, ![2, 1600000]⟩
abbrev S4x64 : Shape := ⟨2, ![4, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 121
  | .vmem => 0
  | .smem => 0
  | _ => 0

abbrev bufTy : (tb : Table) → Fin (tcTables nBuf tb) → BufTy
  | .hbm, ⟨0, _⟩ => ⟨S100000x4, .f32⟩
  | .hbm, ⟨1, _⟩ => ⟨S2x1600000, .i32⟩
  | .hbm, ⟨2, _⟩ => ⟨S4x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S100000x64, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x64, .f32⟩
  | .hbm, ⟨51, _⟩ => ⟨S1700000x1, .f32⟩
  | .hbm, ⟨52, _⟩ => ⟨S1700000x64, .f32⟩
  | .hbm, ⟨53, _⟩ => ⟨S1700000x64, .f32⟩
  | .hbm, ⟨54, _⟩ => ⟨S_, .f32⟩
  | .hbm, ⟨55, _⟩ => ⟨S100000x64, .f32⟩
  | .hbm, ⟨56, _⟩ => ⟨S1700000x1, .i32⟩
  | .hbm, ⟨57, _⟩ => ⟨S100000x64, .f32⟩
  | .hbm, ⟨58, _⟩ => ⟨S1x64, .f32⟩
  | .hbm, ⟨59, _⟩ => ⟨S100000x64, .f32⟩
  | .hbm, ⟨60, _⟩ => ⟨S100000x64, .f32⟩
  | .hbm, ⟨61, _⟩ => ⟨S_, .f32⟩
  | .hbm, ⟨62, _⟩ => ⟨S100000x64, .f32⟩
  | .hbm, ⟨63, _⟩ => ⟨S100000x64, .f32⟩
  | .hbm, ⟨64, _⟩ => ⟨S100000, .i32⟩
  | .hbm, ⟨65, _⟩ => ⟨S1700000, .i32⟩
  | .hbm, ⟨66, _⟩ => ⟨S1700000, .i32⟩
  | .hbm, ⟨67, _⟩ => ⟨S_, .f32⟩
  | .hbm, ⟨68, _⟩ => ⟨S1700000, .f32⟩
  | .hbm, ⟨69, _⟩ => ⟨S_, .f32⟩
  | .hbm, ⟨70, _⟩ => ⟨S100000, .f32⟩
  | .hbm, ⟨71, _⟩ => ⟨S1700000x1, .i32⟩
  | .hbm, ⟨72, _⟩ => ⟨S100000, .f32⟩
  | .hbm, ⟨73, _⟩ => ⟨S100000, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000, .f32⟩
  | .hbm, ⟨83, _⟩ => ⟨S_, .i32⟩
  | .hbm, ⟨84, _⟩ => ⟨S1700000, .i32⟩
  | .hbm, ⟨85, _⟩ => ⟨S1700000, .i1⟩
  | .hbm, ⟨86, _⟩ => ⟨S_, .i32⟩
  | .hbm, ⟨87, _⟩ => ⟨S1700000, .i32⟩
  | .hbm, ⟨88, _⟩ => ⟨S1700000, .i32⟩
  | .hbm, ⟨89, _⟩ => ⟨S1700000, .i32⟩
  | .hbm, ⟨90, _⟩ => ⟨S1700000x1, .i32⟩
  | .hbm, ⟨91, _⟩ => ⟨S1700000, .f32⟩
  | .hbm, ⟨92, _⟩ => ⟨S1700000, .f32⟩
  | .hbm, ⟨93, _⟩ => ⟨S100000x64, .f32⟩
  | .hbm, ⟨94, _⟩ => ⟨S_, .i32⟩
  | .hbm, ⟨95, _⟩ => ⟨S1700000, .i32⟩
  | .hbm, ⟨96, _⟩ => ⟨S1700000, .i1⟩
  | .hbm, ⟨97, _⟩ => ⟨S_, .i32⟩
  | .hbm, ⟨98, _⟩ => ⟨S1700000, .i32⟩
  | .hbm, ⟨99, _⟩ => ⟨S1700000, .i32⟩
  | .hbm, ⟨100, _⟩ => ⟨S1700000, .i32⟩
  | .hbm, ⟨101, _⟩ => ⟨S1700000x1, .i32⟩
  | .hbm, ⟨102, _⟩ => ⟨S1700000x64, .f32⟩
  | .hbm, ⟨103, _⟩ => ⟨S1700000x1, .f32⟩
  | .hbm, ⟨104, _⟩ => ⟨S1700000x64, .f32⟩
  | .hbm, ⟨105, _⟩ => ⟨S1700000x64, .f32⟩
  | .hbm, ⟨106, _⟩ => ⟨S_, .f32⟩
  | .hbm, ⟨107, _⟩ => ⟨S100000x64, .f32⟩
  | .hbm, ⟨108, _⟩ => ⟨S1700000x1, .i32⟩
  | .hbm, ⟨109, _⟩ => ⟨S100000x64, .f32⟩
  | .hbm, ⟨110, _⟩ => ⟨S1x64, .f32⟩
  | .hbm, ⟨111, _⟩ => ⟨S100000x64, .f32⟩
  | .hbm, ⟨112, _⟩ => ⟨S100000x64, .f32⟩
  | .hbm, ⟨113, _⟩ => ⟨S_, .f32⟩
  | .hbm, ⟨114, _⟩ => ⟨S100000x64, .f32⟩
  | .hbm, ⟨115, _⟩ => ⟨S100000x64, .f32⟩
  | .hbm, ⟨116, _⟩ => ⟨S100000x1, .f32⟩
  | .hbm, ⟨117, _⟩ => ⟨S1x1, .f32⟩
  | .hbm, ⟨118, _⟩ => ⟨S100000x1, .f32⟩
  | .hbm, ⟨119, _⟩ => ⟨S100000x1, .f32⟩
  | .hbm, ⟨120, _⟩ => ⟨S100000, .f32⟩
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_7 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_9 : Ref sig .tc := ⟨.hbm, 74, rfl⟩
abbrev main_v53 : Ref sig .tc := ⟨.hbm, 75, rfl⟩
abbrev main_v54 : Ref sig .tc := ⟨.hbm, 76, rfl⟩
abbrev main_c_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_11 : Ref sig .tc := ⟨.hbm, 83, rfl⟩
abbrev main_v60 : Ref sig .tc := ⟨.hbm, 84, rfl⟩
abbrev main_v61 : Ref sig .tc := ⟨.hbm, 85, rfl⟩
abbrev main_c_12 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_13 : Ref sig .tc := ⟨.hbm, 94, rfl⟩
abbrev main_v69 : Ref sig .tc := ⟨.hbm, 95, rfl⟩
abbrev main_v70 : Ref sig .tc := ⟨.hbm, 96, rfl⟩
abbrev main_c_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_15 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_call1_cst : Ref sig .tc := ⟨.hbm, 113, rfl⟩
abbrev main_call1_v0 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x4_S4x64_S100000x64_1_0_0_1_n_n_wf : DotDims.WF S100000x4 S4x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x4_S4x64_S100000x64_1_0_0_1_n_n : DotDims S100000x4 S4x64 S100000x64 where
  lhsContracting := [1]
  rhsContracting := [0]
  lhsNonContracting := [0]
  rhsNonContracting := [1]
  lhsBatch := []
  rhsBatch := []
  wf := dot_S100000x4_S4x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The idealized kernel program's run, with its result named.

  The program is seven stretches in a row: host operations, a pipelined matrix-product region, host operations
  (gather, scale, scatter-add), a second region, host operations again, the head's region, and the final reshape.
  Every weakly fair execution terminates without a fault, and every unscoped buffer of the core then holds what
  folding the stretches over the launch memory gives (`Gen.W7`): in particular the result buffer, and the
  argument arrays, which nothing writes.
-/
import proofs.«158448_j1477468750494_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's contents
    and the argument arrays as launched. -/
theorem run : θ_run defs (onTc (τ := τ) (main (F := F))) ⟨m, fun _ => 0, ρ⟩ (fun r => ∀ c : Dev nD,
      r.2.mem ((c.tc : Thread nD τ).loc main_v59) = W7 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v59 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.RunValue

end
-- ==== Proof.LibDot.lean ====
/- A general lemma for reading a plain matrix product on the host at an index, at the ideal values: rows by columns,
   the sum over the one contracted coordinate. -/
import Idealize.ShloMosaic.PureOps.Ideal.Laws
import Idealize.ShloMosaic.Lib.ValueIdx

open scoped BigOperators

namespace Cert.LibDot

open Idealize.ShloMosaic Idealize.ShloMosaic.ValueIdx

/-- `dot_general` of `[M, K]` by `[K, N]` (contracting the left operand's axis 1 with the right one's axis 0) at `(r, c)`:
    the sum over `d` of `l[r, d] * w[d, c]`. -/
theorem dotGeneral_plain_apply {M K N : Nat} {φ₁ φ₂ : FTy} (prec : Option ContractPrecision) (sched : HostSchedule)
    (l : FVec Ideal ⟨2, ![M, K]⟩ φ₁) (w : FVec Ideal ⟨2, ![K, N]⟩ φ₂) (r : Fin M) (c : Fin N) :
    FloatOps.dotGeneral (DotDims.plain M K N) prec sched l w (ix2 r c) = ∑ d : Fin K, l (ix2 r d) * w (ix2 d c) := by
  rw [Ideal.dotGeneral_apply]
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun d _ => ?_
  congr 1
  · refine congrArg l (funext fun a => Fin.ext ?_)
    match a with
    | ⟨0, _⟩ => rfl
    | ⟨1, _⟩ => exact contrEquiv1_symm_val (DotDims.plain M K N) K hr hs d
  · refine congrArg w (funext fun a => Fin.ext ?_)
    match a with
    | ⟨0, _⟩ => exact contrEquiv1_symm_val (DotDims.plain M K N) K hr hs d
    | ⟨1, _⟩ => rfl

end Cert.LibDot
-- ==== Proof.LibMatmulRead.lean ====
/-
  Matrix products read at an index, at the ideal values.

  A two-axis array is a function of its index; `mm A B` is the matrix product written as the explicit sum over the
  contracted coordinate. A `tpu.matmul` of plain dimension numbers (rows by contraction, contraction by columns) into a
  zero accumulator, and the host's `dot_general` of the same dimension numbers, are both `mm` of their operands: no
  rounding, no chunk order, no accumulator is left at the ideal values.
-/
import Idealize.ShloMosaic.PureOps.Ideal.Laws
import Idealize.ShloMosaic.Lib.ValueIdx
import proofs.«158448_j1477468750494_2_alg».proof.Proof.LibDot

open scoped BigOperators

noncomputable section

namespace Cert.GCN

open Idealize.ShloMosaic Idealize.ShloMosaic.ValueIdx

/-- A two-axis array of extended reals. -/
abbrev Arr (n k : Nat) := (⟨2, ![n, k]⟩ : Shape).Idx → EReal

/-- The matrix product as explicit sums over the contracted coordinate. -/
def mm {n k p : Nat} (A : Arr n k) (B : Arr k p) : Arr n p := fun i => ∑ d : Fin k, A (ix2 (i 0) d) * B (ix2 d (i 1))

theorem mm_apply {n k p : Nat} (A : Arr n k) (B : Arr k p) (r : Fin n) (c : Fin p) :
    mm A B (ix2 r c) = ∑ d : Fin k, A (ix2 r d) * B (ix2 d c) := rfl

/-- A plain `tpu.matmul` into the zero accumulator at `(r, c)`: the sum over `d` of `l[r, d] * w[d, c]`. -/
theorem matmul_plain_zero_apply {M K N : Nat} {φ₁ φ₂ : FTy} (prec : Option ContractPrecision)
    (l : FVec Ideal ⟨2, ![M, K]⟩ φ₁) (w : FVec Ideal ⟨2, ![K, N]⟩ φ₂) (r : Fin M) (c : Fin N) :
    FloatOps.matmul (DotDims.plain M K N) prec l w (constant ⟨2, ![M, N]⟩ .f32 0x00000000#32) (ix2 r c) = ∑ d : Fin K, l (ix2 r d) * w (ix2 d c) := by
  rw [Ideal.matmul_constant_zero_apply]
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun d _ => ?_
  congr 1
  · refine congrArg l (funext fun a => Fin.ext ?_)
    match a with
    | ⟨0, _⟩ => rfl
    | ⟨1, _⟩ => exact contrEquiv1_symm_val (DotDims.plain M K N) K hr hs d
  · refine congrArg w (funext fun a => Fin.ext ?_)
    match a with
    | ⟨0, _⟩ => exact contrEquiv1_symm_val (DotDims.plain M K N) K hr hs d
    | ⟨1, _⟩ => rfl

/-- The host's plain `dot_general` is `mm` of its operands, as whole arrays. -/
theorem hostDot_eq_mm {M K N : Nat} {φ₁ φ₂ : FTy} (prec : Option ContractPrecision) (sched : HostSchedule)
    (l : FVec Ideal ⟨2, ![M, K]⟩ φ₁) (w : FVec Ideal ⟨2, ![K, N]⟩ φ₂) :
    (FloatOps.dotGeneral (DotDims.plain M K N) prec sched l w : Arr M N) = mm l w := by
  funext i
  rw [eq_ix2 i]
  exact Cert.LibDot.dotGeneral_plain_apply prec sched l w (i 0) (i 1)

end Cert.GCN

end
-- ==== Proof.LibLayers.lean ====
/-
  General definitions and lemmas: the layers of a graph convolution, as functions of whole arrays of extended reals.

  A layer multiplies the features by a weight matrix, multiplies the adjacency matrix by the result and adds a
  bias to every row: `A · (H · W) + b`.  Between layers every entry is replaced by its maximum with zero.
  All of it is row-wise in the adjacency matrix: row `r` of the result depends on `A` only through row `r` of `A`.
  So any selection of rows of `A` (a block of consecutive rows, in particular) gives the same selection of rows of
  the result — which is what lets a result computed block of rows by block of rows be read as one array.
-/
import Idealize.ShloMosaic.Lib.Pipeline.Value
import Idealize.ShloMosaic.Lib.ValueIdx
import proofs.«158448_j1477468750494_2_alg».proof.Proof.LibMatmulRead

open scoped BigOperators

noncomputable section

namespace Cert.Layers

open Idealize.ShloMosaic Idealize.ShloMosaic.ValueIdx Cert.GCN

/-- A one-axis array of extended reals. -/
abbrev Row (p : Nat) := (⟨1, ![p]⟩ : Shape).Idx → EReal

/-- A vector laid out as the single row of a `[1, p]` array. -/
def asRow {p : Nat} (b : Row p) : Arr 1 p := fun i => b (ix1 (i 1))

/-- A one-row array added to every row. -/
def addRow {n p : Nat} (X : Arr n p) (b : Arr 1 p) : Arr n p := fun i => X i + b (ix2 (0 : Fin 1) (i 1))

/-- Every entry replaced by its maximum with zero. -/
def relu {n p : Nat} (X : Arr n p) : Arr n p := fun i => max (X i) 0

theorem addRow_apply {n p : Nat} (X : Arr n p) (b : Arr 1 p) (r : Fin n) (c : Fin p) :
    addRow X b (ix2 r c) = X (ix2 r c) + b (ix2 (0 : Fin 1) c) := rfl

theorem relu_apply {n p : Nat} (X : Arr n p) (r : Fin n) (c : Fin p) : relu X (ix2 r c) = max (X (ix2 r c)) 0 := rfl

/-- The features handed to the next layer: `max (A · S + b, 0) · W`, where `S` is the previous product. -/
def hidden {n k q p : Nat} (A : Arr n k) (S : Arr k q) (b : Arr 1 q) (W : Arr q p) : Arr n p :=
  mm (relu (addRow (mm A S) b)) W

/-- The last layer's result: `A · S + b`. -/
def affine {n k p : Nat} (A : Arr n k) (S : Arr k p) (b : Arr 1 p) : Arr n p := addRow (mm A S) b

/-! ## Rows of the result come from the same rows of the left factor -/

section Rows

variable {N n : Nat} (f : Fin n → Fin N)

theorem mm_rows {k p : Nat} (A : Arr N k) (A' : Arr n k) (B : Arr k p)
    (h : ∀ r d, A' (ix2 r d) = A (ix2 (f r) d)) (r : Fin n) (c : Fin p) :
    mm A' B (ix2 r c) = mm A B (ix2 (f r) c) := by
  rw [mm_apply, mm_apply]
  exact Finset.sum_congr rfl fun d _ => by rw [h r d]

theorem addRow_rows {p : Nat} (X : Arr N p) (X' : Arr n p) (b : Arr 1 p)
    (h : ∀ r c, X' (ix2 r c) = X (ix2 (f r) c)) (r : Fin n) (c : Fin p) :
    addRow X' b (ix2 r c) = addRow X b (ix2 (f r) c) := by
  rw [addRow_apply, addRow_apply, h r c]

theorem relu_rows {p : Nat} (X : Arr N p) (X' : Arr n p)
    (h : ∀ r c, X' (ix2 r c) = X (ix2 (f r) c)) (r : Fin n) (c : Fin p) :
    relu X' (ix2 r c) = relu X (ix2 (f r) c) := by
  rw [relu_apply, relu_apply, h r c]

theorem hidden_rows {k q p : Nat} (A : Arr N k) (A' : Arr n k) (S : Arr k q) (b : Arr 1 q) (W : Arr q p)
    (h : ∀ r d, A' (ix2 r d) = A (ix2 (f r) d)) (r : Fin n) (c : Fin p) :
    hidden A' S b W (ix2 r c) = hidden A S b W (ix2 (f r) c) :=
  mm_rows f _ _ W (relu_rows f _ _ (addRow_rows f _ _ b (mm_rows f A A' S h))) r c

theorem affine_rows {k p : Nat} (A : Arr N k) (A' : Arr n k) (S : Arr k p) (b : Arr 1 p)
    (h : ∀ r d, A' (ix2 r d) = A (ix2 (f r) d)) (r : Fin n) (c : Fin p) :
    affine A' S b (ix2 r c) = affine A S b (ix2 (f r) c) :=
  addRow_rows f _ _ b (mm_rows f A A' S h) r c

end Rows

/-! ## A one-row array spread over all rows, read at an entry -/

/-- A `[1, b]` array broadcast to `[a, b]` reads, at `(i, j)`, its only row at `j`. -/
theorem broadcastTo_row_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

end Cert.Layers

end
-- ==== Proof.LibLayerOps.lean ====
/-
  General lemmas: the operations of a dense layer, as a kernel body and as the host spell them, read as whole
  arrays at the ideal values.

  In a kernel body: a plain matrix product into the zero accumulator is the matrix product; adding a one-row array
  spread over the rows adds that row to every row; the maximum with the zero splat is the maximum with zero.
  On the host: a plain `dot_general` is the matrix product; a bias vector is added to every row by broadcasting it
  first to one row and then over all rows; the maximum with zero is taken against a broadcast scalar zero; and a
  vector reshaped to one row is that vector as a row.
-/
import Idealize.ShloMosaic.Lib.Pipeline.Value
import Idealize.ShloMosaic.Lib.ValueIdx
import Idealize.ShloMosaic.PureOps.Ideal.Laws
import proofs.«158448_j1477468750494_2_alg».proof.Proof.LibLayers

noncomputable section

namespace Cert.LayerOps

open Idealize.ShloMosaic Idealize.ShloMosaic.ValueIdx Cert.GCN Cert.Layers

/-- A plain matrix product into the zero accumulator is the product of its operands, as whole arrays. -/
theorem matmul_zero_eq_mm {M K N : Nat} {φ₁ φ₂ : FTy} (prec : Option ContractPrecision)
    (l : FVec Ideal ⟨2, ![M, K]⟩ φ₁) (w : FVec Ideal ⟨2, ![K, N]⟩ φ₂) :
    (FloatOps.matmul (DotDims.plain M K N) prec l w (constant ⟨2, ![M, N]⟩ .f32 0x00000000#32) : Arr M N) = mm l w := by
  funext i
  rw [eq_ix2 i]
  exact matmul_plain_zero_apply prec l w (i 0) (i 1)

/-- Adding a one-row array spread over the rows adds that row to every row. -/
theorem addf_row {a b : Nat} (X : FVec Ideal ⟨2, ![a, b]⟩ .f32) (v : FVec Ideal ⟨2, ![1, b]⟩ .f32)
    (h : (⟨2, ![1, b]⟩ : Shape).Broadcasts ⟨2, ![a, b]⟩) :
    (addf X (broadcastTo ⟨2, ![a, b]⟩ v h) : Arr a b) = addRow X v := by
  funext i
  rw [eq_ix2 i]
  exact congrArg (X (ix2 (i 0) (i 1)) + ·) (broadcastTo_row_apply v h (i 0) (i 1))

/-- The maximum with the zero splat is the maximum with zero. -/
theorem maximumf_zero {a b : Nat} (X : FVec Ideal ⟨2, ![a, b]⟩ .f32) :
    (maximumf X (broadcast ⟨2, ![a, b]⟩ (Scalar.ofBits (F := Ideal) .f32 0x00000000#32)) : Arr a b) = relu X := by
  funext i
  show max (X i) (Ideal.ofBits .f32 0x00000000#32) = max (X i) 0
  rw [Ideal.ofBits_zero_f32]

end Cert.LayerOps

namespace Cert.HostLayers

open Idealize.ShloMosaic Idealize.ShloMosaic.ValueIdx Cert.GCN Cert.Layers

/-- A plain `dot_general` on the host is the matrix product of its operands. -/
theorem hostDot_plain {M K N : Nat} (D : DotDims ⟨2, ![M, K]⟩ ⟨2, ![K, N]⟩ ⟨2, ![M, N]⟩) (hD : D = DotDims.plain M K N)
    (prec : Option ContractPrecision) (l : FVec Ideal ⟨2, ![M, K]⟩ .f32) (w : FVec Ideal ⟨2, ![K, N]⟩ .f32) :
    (Host.dotGeneral D prec l w : Arr M N) = mm l w := by
  subst hD
  exact hostDot_eq_mm prec .single l w

/-- A vector broadcast to one row and then over all rows reads, at `(r, c)`, the vector at `c`. -/
theorem bias_apply {n p : Nat} (b : FVec Ideal ⟨1, ![p]⟩ .f32)
    (h1 : (⟨1, ![p]⟩ : Shape).BroadcastsInDim ⟨2, ![1, p]⟩ ![1])
    (h2 : (⟨2, ![1, p]⟩ : Shape).BroadcastsInDim ⟨2, ![n, p]⟩ ![0, 1]) (r : Fin n) (c : Fin p) :
    broadcastInDim ⟨2, ![n, p]⟩ ![0, 1] h2 (broadcastInDim ⟨2, ![1, p]⟩ ![1] h1 b) (ix2 r c) = b (ix1 c) := by
  refine (broadcastInDim_apply ![0, 1] h2 _ (ix2 r c) (ix2 (0 : Fin 1) c) fun a => ?_).trans ?_
  · match a with
    | ⟨0, _⟩ => rfl
    | ⟨1, _⟩ =>
      show c.val = if p = 1 then 0 else c.val
      split
      · have := c.isLt; omega
      · rfl
  · refine broadcastInDim_apply ![1] h1 b (ix2 (0 : Fin 1) c) (ix1 c) fun a => ?_
    match a with
    | ⟨0, _⟩ =>
      show c.val = if p = 1 then 0 else c.val
      split
      · have := c.isLt; omega
      · rfl

/-- Adding that broadcast to an array adds the vector, as a row, to every row. -/
theorem host_addRow {n p : Nat} (X : FVec Ideal ⟨2, ![n, p]⟩ .f32) (b : FVec Ideal ⟨1, ![p]⟩ .f32)
    (h1 : (⟨1, ![p]⟩ : Shape).BroadcastsInDim ⟨2, ![1, p]⟩ ![1])
    (h2 : (⟨2, ![1, p]⟩ : Shape).BroadcastsInDim ⟨2, ![n, p]⟩ ![0, 1]) :
    (addf X (broadcastInDim ⟨2, ![n, p]⟩ ![0, 1] h2 (broadcastInDim ⟨2, ![1, p]⟩ ![1] h1 b)) : Arr n p)
      = addRow X (asRow b) := by
  funext i
  rw [eq_ix2 i]
  exact congrArg (X (ix2 (i 0) (i 1)) + ·) (bias_apply b h1 h2 (i 0) (i 1))

/-- The maximum with the broadcast scalar zero is the maximum with zero. -/
theorem host_relu {n p : Nat} (X : FVec Ideal ⟨2, ![n, p]⟩ .f32)
    (h : (⟨0, ![]⟩ : Shape).BroadcastsInDim ⟨2, ![n, p]⟩ ![]) :
    (maximumf X (broadcastInDim ⟨2, ![n, p]⟩ ![] h (constant (F := Ideal) ⟨0, ![]⟩ .f32 0x00000000#32)) : Arr n p) = relu X := by
  funext i
  show max (X i) (broadcastInDim ⟨2, ![n, p]⟩ ![] h (constant (F := Ideal) ⟨0, ![]⟩ .f32 0x00000000#32) i) = max (X i) 0
  rw [broadcastInDim_apply ![] h _ i ix0 (fun a => a.elim0)]
  show max (X i) (Ideal.ofBits .f32 0x00000000#32) = _
  rw [Ideal.ofBits_zero_f32]

/-- A vector reshaped to one row is that vector as a row. -/
theorem reshape_asRow {p : Nat} (b : FVec Ideal ⟨1, ![p]⟩ .f32) (h : (⟨1, ![p]⟩ : Shape).ShapeCasts ⟨2, ![1, p]⟩) :
    (shapeCast ⟨2, ![1, p]⟩ b h : Arr 1 p) = asRow b := by
  funext i
  have h0 : (i 0).val < 1 := (i 0).isLt
  refine shapeCast_apply b h i (ix1 (i 1)) ?_
  rw [Shape.rowMajor_val_two, Shape.rowMajor_val_one]
  show (i 1).val = (i 0).val * p + (i 1).val
  have : (i 0).val = 0 := by omega
  rw [this, Nat.zero_mul, Nat.zero_add]

end Cert.HostLayers

end
-- ==== Proof.LibDenseLayer.lean ====
/-
  The dense parts of a two-layer graph convolution with a linear head, as functions of whole arrays of extended reals.

  Between two aggregations a layer adds its bias to every row, replaces every entry by its maximum with zero and
  multiplies by the next weight matrix: `act A b W = max (A + b, 0) · W`.  The head does the same and adds its own
  bias: `head A b W c = max (A + b, 0) · W + c`.  Both are row-wise in `A`: row `r` of the result depends on `A`
  only through row `r`.  So a block of consecutive rows of the result is the same function of that block of rows of
  `A` — which is why a result computed block by block is one array.

  Two spellings of these functions are read here at the ideal values.  A kernel body rounds its operands to a shorter
  format (the identity on extended reals), multiplies into a zero accumulator, and spreads a one-row bias over the rows.
  The host multiplies by `dot_general`, adds a bias vector broadcast first to one row and then to every row, and takes
  the maximum with a broadcast zero.
-/
import Idealize.ShloMosaic.Lib.Pipeline.Value
import Idealize.ShloMosaic.Lib.ValueIdx
import Idealize.ShloMosaic.PureOps.Ideal.Laws
import proofs.«158448_j1477468750494_2_alg».proof.Proof.LibLayerOps

open scoped BigOperators

noncomputable section

namespace Cert.Dense

open Idealize.ShloMosaic Idealize.ShloMosaic.ValueIdx Cert.GCN Cert.Layers

/-- Bias, maximum with zero, then the next weights: `max (A + b, 0) · W`. -/
def act {n q p : Nat} (A : Arr n q) (b : Arr 1 q) (W : Arr q p) : Arr n p := mm (relu (addRow A b)) W

/-- The head: `max (A + b, 0) · W + c`. -/
def head {n q p : Nat} (A : Arr n q) (b : Arr 1 q) (W : Arr q p) (c : Arr 1 p) : Arr n p := addRow (act A b W) c

/-! ## Rows of the result come from the same rows of the aggregated features -/

section Rows

variable {N n : Nat} (f : Fin n → Fin N)

theorem act_rows {q p : Nat} (A : Arr N q) (A' : Arr n q) (b : Arr 1 q) (W : Arr q p)
    (h : ∀ r d, A' (ix2 r d) = A (ix2 (f r) d)) (r : Fin n) (c : Fin p) :
    act A' b W (ix2 r c) = act A b W (ix2 (f r) c) :=
  mm_rows f _ _ W (relu_rows f _ _ (addRow_rows f A A' b h)) r c

theorem head_rows {q p : Nat} (A : Arr N q) (A' : Arr n q) (b : Arr 1 q) (W : Arr q p) (c₀ : Arr 1 p)
    (h : ∀ r d, A' (ix2 r d) = A (ix2 (f r) d)) (r : Fin n) (c : Fin p) :
    head A' b W c₀ (ix2 r c) = head A b W c₀ (ix2 (f r) c) :=
  addRow_rows f _ _ c₀ (act_rows f A A' b W h) r c

end Rows

/-! ## The kernel bodies' spelling -/

/-- Rounding both operands to the shorter format and multiplying into the zero accumulator is the product. -/
theorem body_mm {a k p : Nat} (D : DotDims ⟨2, ![a, k]⟩ ⟨2, ![k, p]⟩ ⟨2, ![a, p]⟩) (hD : D = DotDims.plain a k p)
    (hb : FTy.bits .bf16 < FTy.bits .f32)
    (x : FVec Ideal ⟨2, ![a, k]⟩ .f32) (w : FVec Ideal ⟨2, ![k, p]⟩ .f32) :
    (matmul D none (truncf .bf16 x hb) (truncf .bf16 w hb) (constant ⟨2, ![a, p]⟩ .f32 0x00000000#32) : Arr a p) = mm x w := by
  subst hD
  exact Cert.LayerOps.matmul_zero_eq_mm none (truncf .bf16 x hb) (truncf .bf16 w hb)

/-- Adding the one-row bias spread over the rows, then the maximum with the zero splat, rounding, and the product
    into the zero accumulator: `act`. -/
theorem body_act {a q p : Nat} (D : DotDims ⟨2, ![a, q]⟩ ⟨2, ![q, p]⟩ ⟨2, ![a, p]⟩) (hD : D = DotDims.plain a q p)
    (hb : FTy.bits .bf16 < FTy.bits .f32) (hbc : (⟨2, ![1, q]⟩ : Shape).Broadcasts ⟨2, ![a, q]⟩)
    (x : FVec Ideal ⟨2, ![a, q]⟩ .f32) (b : FVec Ideal ⟨2, ![1, q]⟩ .f32) (w : FVec Ideal ⟨2, ![q, p]⟩ .f32) :
    (matmul D none
        (truncf .bf16 (maximumf (addf x (broadcastTo ⟨2, ![a, q]⟩ b hbc))
          (broadcast ⟨2, ![a, q]⟩ (Scalar.ofBits (F := Ideal) .f32 0x00000000#32))) hb)
        (truncf .bf16 w hb) (constant ⟨2, ![a, p]⟩ .f32 0x00000000#32) : Arr a p) = act x b w := by
  rw [body_mm D hD hb]
  unfold act
  congr 1
  exact (Cert.LayerOps.maximumf_zero _).trans (congrArg relu (Cert.LayerOps.addf_row x b hbc))

/-! ## The host's spelling -/

/-- The host's `dot_general` of the activated features: bias broadcast to one row and then over the rows, maximum
    with a broadcast zero, plain product. -/
theorem host_act {n q p : Nat} (D : DotDims ⟨2, ![n, q]⟩ ⟨2, ![q, p]⟩ ⟨2, ![n, p]⟩) (hD : D = DotDims.plain n q p)
    (h1 : (⟨1, ![q]⟩ : Shape).BroadcastsInDim ⟨2, ![1, q]⟩ ![1])
    (h2 : (⟨2, ![1, q]⟩ : Shape).BroadcastsInDim ⟨2, ![n, q]⟩ ![0, 1])
    (h0 : (⟨0, ![]⟩ : Shape).BroadcastsInDim ⟨2, ![n, q]⟩ ![])
    (X : FVec Ideal ⟨2, ![n, q]⟩ .f32) (b : FVec Ideal ⟨1, ![q]⟩ .f32) (W : FVec Ideal ⟨2, ![q, p]⟩ .f32) :
    (Host.dotGeneral D none
        (maximumf (addf X (broadcastInDim ⟨2, ![n, q]⟩ ![0, 1] h2 (broadcastInDim ⟨2, ![1, q]⟩ ![1] h1 b)))
          (broadcastInDim ⟨2, ![n, q]⟩ ![] h0 (constant (F := Ideal) ⟨0, ![]⟩ .f32 0x00000000#32))) W : Arr n p)
      = act X (asRow b) W := by
  rw [Cert.HostLayers.hostDot_plain D hD]
  unfold act
  congr 1
  exact (Cert.HostLayers.host_relu _ h0).trans (congrArg relu (Cert.HostLayers.host_addRow X b h1 h2))

end Cert.Dense

end
-- ==== Proof.Region0.lean ====
/-
  The first region: what its output array holds when the region returns.

  The grid has ten points; point `t` stages rows `10000 t … 10000 t + 9999` of the node features and the whole
  first weight matrix, and writes back their product into the same rows of the output.  Rows of a product come
  from the same rows of the left factor and the ten blocks tile the output, so the output ends holding the
  product of the whole arrays the region was entered with; the two input arrays end as they were entered.
-/
import proofs.«158448_j1477468750494_2_alg».proof.Proof.Gen.KernelIdeal.Frame
import proofs.«158448_j1477468750494_2_alg».proof.Proof.LibDenseLayer

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen Cert.GCN Cert.Layers Cert.Dense

variable (V : (c : Dev nD) → (b : Ref sig .tc) → Buf (Elt Ideal) ((c : Thread nD τ).loc b))

theorem hz : (![0, 0] : Fin 2 → Nat) = fun _ => 0 := funext fun a => by fin_cases a <;> rfl

/-- The body's stored value is the product of the two staged blocks. -/
theorem pay_eq (x0 : Vec Ideal S10000x4 .f32) (x1 : Vec Ideal S4x64 .f32) :
    (k0_pay1 x0 x1 : Arr 10000 64) = mm x0 x1 := by
  unfold k0_pay1
  exact body_mm dot_S10000x4_S4x64_S10000x64_1_0_0_1_n_n rfl bitsLt_bf16_f32 x0 x1

/-- The index maps over the grid: the row windows move with the point, the weight window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `r` of point `t`'s block is row `10000 t + r` of the array. -/
def rowOf (t : Fin cfg0.N) (r : Fin 10000) : Fin 100000 :=
  ⟨t.val * 10000 + r.val, by have := t.isLt; have h : cfg0.N = 10 := N_0; have := r.isLt; omega⟩

/-- The staged block of node features, entry by entry. -/
theorem blk0 (c : Dev nD) (t : Fin cfg0.N) (r : Fin 10000) (d : Fin 4) :
    iblk0 V c 0 t (ix2 r d) = V c main_arg0 (ix2 (rowOf t r) d) := by
  obtain ⟨e0, e1, -⟩ := idx_facts t
  show V c main_arg0 (((cfg0.win 0).blk t).view.emb (ix2 r d)) = _
  refine congrArg (V c main_arg0) (funext fun a => Fin.ext ?_)
  match a with
  | ⟨0, _⟩ => show win0_0.index t (0 : Fin 2) * 10000 + 1 * r.val = t.val * 10000 + r.val; omega
  | ⟨1, _⟩ => show win0_0.index t (1 : Fin 2) * 4 + 1 * d.val = d.val; omega

/-- The staged weights are the whole matrix. -/
theorem blk1 (c : Dev nD) (t : Fin cfg0.N) : iblk0 V c 1 t = V c main_arg2 := by
  obtain ⟨-, -, e0, e1, -⟩ := idx_facts t
  funext y
  show V c main_arg2 (((cfg0.win 1).blk t).view.emb y) = _
  refine congrArg (V c main_arg2) (funext fun a => Fin.ext ?_)
  match a with
  | ⟨0, _⟩ => show win0_1.index t (0 : Fin 2) * 4 + 1 * (y 0).val = (y 0).val; omega
  | ⟨1, _⟩ => show win0_1.index t (1 : Fin 2) * 64 + 1 * (y 1).val = (y 1).val; omega

/-- What the region's output is to hold: the product of the arrays the region is entered with. -/
def G (c : Dev nD) : Arr 100000 64 := mm (V c main_arg0) (V c main_arg2)

/-- What point `t` writes back is block `t` of `G`. -/
theorem flushed_eq (c : Dev nD) (t : Fin cfg0.N) :
    (dat0 V c).flushed 2 t = ((cfg0.win 2).blk t).view.read (Elt Ideal) (G V c) := by
  show (cfg0.win 2).cut (grid0.coords t) ((dat0 V c).after 2 t) = _
  rw [after0_2]
  unfold out0_2
  rw [View.canon_unit_zero hz]
  simp only [View.ld_unit_zero (S := S10000x4) hz, View.ld_unit_zero (S := S4x64) hz]
  obtain ⟨-, -, -, -, e0, e1⟩ := idx_facts t
  funext j
  obtain ⟨r, d, rfl⟩ : ∃ (r : Fin 10000) (d : Fin 64), j = ix2 r d := ⟨j 0, j 1, eq_ix2 j⟩
  show k0_pay1 (iblk0 V c 0 t) (iblk0 V c 1 t) (ix2 r d) = G V c (((cfg0.win 2).blk t).view.emb (ix2 r d))
  have e : ((cfg0.win 2).blk t).view.emb (ix2 r d) = ix2 (rowOf t r) d := by
    funext a; apply Fin.ext
    match a with
    | ⟨0, _⟩ => show win0_2.index t (0 : Fin 2) * 10000 + 1 * r.val = t.val * 10000 + r.val; omega
    | ⟨1, _⟩ => show win0_2.index t (1 : Fin 2) * 64 + 1 * d.val = d.val; omega
  rw [e]
  refine (congrFun (pay_eq (iblk0 V c 0 t) (iblk0 V c 1 t)) (ix2 r d)).trans ?_
  rw [blk1 V c t]
  exact mm_rows (rowOf t) (V c main_arg0) (iblk0 V c 0 t) (V c main_arg2) (fun r d => blk0 V c t r d) r d

/-- An index of the output array is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v27).slice (win0_2.rect t)).set ↔ _
  rw [View.set_slice_whole, Rect.mem_set_unit]
  exact Iff.rfl

/-- The ten blocks of rows tile the output: row `r` is in the block of point `r / 10000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 10000 :=
    ⟨⟨(i 0).val / 10000, by have h : cfg0.N = 10 := N_0; rw [h]; omega⟩, rfl⟩
  obtain ⟨-, -, -, -, e0, e1⟩ := idx_facts t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array when the region returns. -/
theorem final (c : Dev nD) : (dat0 V c).arrAt 2 cfg0.N = G V c :=
  (dat0 V c).arrAt_eq_of_cover 2 (G V c) (fun t _ => flushed_eq V c t) cover

/-- The input arrays when the region returns: as entered. -/
theorem kept (c : Dev nD) (w : Fin cfg0.W) (hw : w ≠ 2) : (dat0 V c).arrAt w cfg0.N = V c (Pipeline.arrRef spec0 w) := by
  match w, hw with
  | ⟨0, _⟩, _ => exact ((dat0 V c).arrAt_in 0 rfl _).trans (A_eq0 V c 0)
  | ⟨1, _⟩, _ => exact ((dat0 V c).arrAt_in 1 rfl _).trans (A_eq0 V c 1)
  | ⟨2, _⟩, h => exact absurd rfl h

end Cert.KernelIdeal.Region0

end
-- ==== Proof.Region1.lean ====
/-
  The second region: what its output array holds when the region returns.

  The grid has ten points; point `t` stages rows `10000 t … 10000 t + 9999` of the aggregated features, the whole
  one-row bias and the whole weight matrix, and writes back `max (rows + bias, 0) · W` into the same rows of the
  output.  Row-wise functions of a block of rows are blocks of rows of the function of the whole array, the ten
  blocks tile the output, so the output ends holding `max (A + b, 0) · W` of the arrays the region was entered
  with; the three input arrays end as they were entered.
-/
import proofs.«158448_j1477468750494_2_alg».proof.Proof.Gen.KernelIdeal.Frame
import proofs.«158448_j1477468750494_2_alg».proof.Proof.LibDenseLayer

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen Cert.GCN Cert.Layers Cert.Dense

variable (V : (c : Dev nD) → (b : Ref sig .tc) → Buf (Elt Ideal) ((c : Thread nD τ).loc b))

theorem hz : (![0, 0] : Fin 2 → Nat) = fun _ => 0 := funext fun a => by fin_cases a <;> rfl

/-- The body's stored value is `max (x + b, 0) · w` of the three staged blocks. -/
theorem pay_eq (x0 : Vec Ideal S10000x64 .f32) (x1 : Vec Ideal S1x64 .f32) (x2 : Vec Ideal S64x64 .f32) :
    (k1_pay1 x0 x1 x2 : Arr 10000 64) = act x0 x1 x2 := by
  unfold k1_pay1
  simp only [shapeCast_self]
  exact body_act dot_S10000x64_S64x64_S10000x64_1_0_0_1_n_n rfl bitsLt_bf16_f32 broadcasts_S1x64_S10000x64 x0 x1 x2

/-- The index maps over the grid: the row windows move with the point, the bias and weight windows stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `r` of point `t`'s block is row `10000 t + r` of the array. -/
def rowOf (t : Fin cfg1.N) (r : Fin 10000) : Fin 100000 :=
  ⟨t.val * 10000 + r.val, by have := t.isLt; have h : cfg1.N = 10 := N_1; have := r.isLt; omega⟩

/-- The staged block of aggregated features, entry by entry. -/
theorem blk0 (c : Dev nD) (t : Fin cfg1.N) (r : Fin 10000) (d : Fin 64) :
    iblk1 V c 0 t (ix2 r d) = V c main_v40 (ix2 (rowOf t r) d) := by
  obtain ⟨e0, e1, -⟩ := idx_facts t
  show V c main_v40 (((cfg1.win 0).blk t).view.emb (ix2 r d)) = _
  refine congrArg (V c main_v40) (funext fun a => Fin.ext ?_)
  match a with
  | ⟨0, _⟩ => show win1_0.index t (0 : Fin 2) * 10000 + 1 * r.val = t.val * 10000 + r.val; omega
  | ⟨1, _⟩ => show win1_0.index t (1 : Fin 2) * 64 + 1 * d.val = d.val; omega

/-- The staged bias is the whole one-row array. -/
theorem blk1 (c : Dev nD) (t : Fin cfg1.N) : iblk1 V c 1 t = V c main_v41 := by
  obtain ⟨-, -, e0, e1, -⟩ := idx_facts t
  funext y
  show V c main_v41 (((cfg1.win 1).blk t).view.emb y) = _
  refine congrArg (V c main_v41) (funext fun a => Fin.ext ?_)
  match a with
  | ⟨0, _⟩ => show win1_1.index t (0 : Fin 2) * 1 + 1 * (y 0).val = (y 0).val; omega
  | ⟨1, _⟩ => show win1_1.index t (1 : Fin 2) * 64 + 1 * (y 1).val = (y 1).val; omega

/-- The staged weights are the whole matrix. -/
theorem blk2 (c : Dev nD) (t : Fin cfg1.N) : iblk1 V c 2 t = V c main_arg4 := by
  obtain ⟨-, -, -, -, e0, e1, -⟩ := idx_facts t
  funext y
  show V c main_arg4 (((cfg1.win 2).blk t).view.emb y) = _
  refine congrArg (V c main_arg4) (funext fun a => Fin.ext ?_)
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- What the region's output is to hold: `max (A + b, 0) · W` of the arrays the region is entered with. -/
def G (c : Dev nD) : Arr 100000 64 := act (V c main_v40) (V c main_v41) (V c main_arg4)

/-- What point `t` writes back is block `t` of `G`. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz, View.ld_unit_zero (S := S64x64) hz]
  obtain ⟨-, -, -, -, -, -, e0, e1⟩ := idx_facts t
  funext j
  obtain ⟨r, d, rfl⟩ : ∃ (r : Fin 10000) (d : Fin 64), j = ix2 r d := ⟨j 0, j 1, eq_ix2 j⟩
  show k1_pay1 (iblk1 V c 0 t) (iblk1 V c 1 t) (iblk1 V c 2 t) (ix2 r d) = G V c (((cfg1.win 3).blk t).view.emb (ix2 r d))
  have e : ((cfg1.win 3).blk t).view.emb (ix2 r d) = ix2 (rowOf t r) d := by
    funext a; apply Fin.ext
    match a with
    | ⟨0, _⟩ => show win1_3.index t (0 : Fin 2) * 10000 + 1 * r.val = t.val * 10000 + r.val; omega
    | ⟨1, _⟩ => show win1_3.index t (1 : Fin 2) * 64 + 1 * d.val = d.val; omega
  rw [e]
  refine (congrFun (pay_eq (iblk1 V c 0 t) (iblk1 V c 1 t) (iblk1 V c 2 t)) (ix2 r d)).trans ?_
  rw [blk1 V c t, blk2 V c t]
  exact act_rows (rowOf t) (V c main_v40) (iblk1 V c 0 t) (V c main_v41) (V c main_arg4) (fun r d => blk0 V c t r d) r d

/-- An index of the output array is in point `t`'s block iff each coordinate is in the block's range on its axis. -/
theorem mem_blk (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v42).slice (win1_3.rect t)).set ↔ _
  rw [View.set_slice_whole, Rect.mem_set_unit]
  exact Iff.rfl

/-- The ten blocks of rows tile the output: row `r` is in the block of point `r / 10000`. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ : ∃ t : Fin cfg1.N, t.val = (i 0).val / 10000 :=
    ⟨⟨(i 0).val / 10000, by have h : cfg1.N = 10 := N_1; rw [h]; omega⟩, rfl⟩
  obtain ⟨-, -, -, -, -, -, e0, e1⟩ := idx_facts t
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- The output array when the region returns. -/
theorem final (c : Dev nD) : (dat1 V c).arrAt 3 cfg1.N = G V c :=
  (dat1 V c).arrAt_eq_of_cover 3 (G V c) (fun t _ => flushed_eq V c t) cover

/-- The input arrays when the region returns: as entered. -/
theorem kept (c : Dev nD) (w : Fin cfg1.W) (hw : w ≠ 3) : (dat1 V c).arrAt w cfg1.N = V c (Pipeline.arrRef spec1 w) := by
  match w, hw with
  | ⟨0, _⟩, _ => exact ((dat1 V c).arrAt_in 0 rfl _).trans (A_eq1 V c 0)
  | ⟨1, _⟩, _ => exact ((dat1 V c).arrAt_in 1 rfl _).trans (A_eq1 V c 1)
  | ⟨2, _⟩, _ => exact ((dat1 V c).arrAt_in 2 rfl _).trans (A_eq1 V c 2)
  | ⟨3, _⟩, h => exact absurd rfl h

end Cert.KernelIdeal.Region1

end
-- ==== Proof.Region2.lean ====
/-
  The head's region: what its output array holds when the region returns.

  The grid has ten points; point `t` stages rows `10000 t … 10000 t + 9999` of the aggregated features, the whole
  one-row bias, the whole head weights and the one-entry head bias, and writes back
  `max (rows + bias, 0) · W + c` into the same rows of the one-column output.  Row-wise functions of a block of
  rows are blocks of rows of the function of the whole array, the ten blocks tile the output, so the output ends
  holding `max (A + b, 0) · W + c` of the arrays the region was entered with; the four input arrays end as entered.
-/
import proofs.«158448_j1477468750494_2_alg».proof.Proof.Gen.KernelIdeal.Frame
import proofs.«158448_j1477468750494_2_alg».proof.Proof.LibDenseLayer

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat)
open Cert.KernelIdeal Cert.KernelIdeal.Gen Cert.GCN Cert.Layers Cert.Dense

variable (V : (c : Dev nD) → (b : Ref sig .tc) → Buf (Elt Ideal) ((c : Thread nD τ).loc b))

theorem hz : (![0, 0] : Fin 2 → Nat) = fun _ => 0 := funext fun a => by fin_cases a <;> rfl

/-- The body's stored value is `max (x + b, 0) · w + c` of the four staged blocks. -/
theorem pay_eq (x0 : Vec Ideal S10000x64 .f32) (x1 : Vec Ideal S1x64 .f32) (x2 : Vec Ideal S64x1 .f32) (x3 : Vec Ideal S1x1 .f32) :
    (k2_pay1 x0 x1 x2 x3 : Arr 10000 1) = head x0 x1 x2 x3 := by
  unfold k2_pay1
  simp only [shapeCast_self]
  unfold head
  refine (Cert.LayerOps.addf_row _ x3 broadcasts_S1x1_S10000x1).trans ?_
  exact congrArg (fun Z => addRow Z x3)
    (body_act dot_S10000x64_S64x1_S10000x1_1_0_0_1_n_n rfl bitsLt_bf16_f32 broadcasts_S1x64_S10000x64 x0 x1 x2)

/-- The index maps over the grid: the row windows move with the point, the other windows stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row `r` of point `t`'s block is row `10000 t + r` of the array. -/
def rowOf (t : Fin cfg2.N) (r : Fin 10000) : Fin 100000 :=
  ⟨t.val * 10000 + r.val, by have := t.isLt; have h : cfg2.N = 10 := N_2; have := r.isLt; omega⟩

/-- The staged block of aggregated features, entry by entry. -/
theorem blk0 (c : Dev nD) (t : Fin cfg2.N) (r : Fin 10000) (d : Fin 64) :
    iblk2 V c 0 t (ix2 r d) = V c main_v55 (ix2 (rowOf t r) d) := by
  obtain ⟨e0, e1, -⟩ := idx_facts t
  show V c main_v55 (((cfg2.win 0).blk t).view.emb (ix2 r d)) = _
  refine congrArg (V c main_v55) (funext fun a => Fin.ext ?_)
  match a with
  | ⟨0, _⟩ => show win2_0.index t (0 : Fin 2) * 10000 + 1 * r.val = t.val * 10000 + r.val; omega
  | ⟨1, _⟩ => show win2_0.index t (1 : Fin 2) * 64 + 1 * d.val = d.val; omega

/-- The staged bias is the whole one-row array. -/
theorem blk1 (c : Dev nD) (t : Fin cfg2.N) : iblk2 V c 1 t = V c main_v56 := by
  obtain ⟨-, -, e0, e1, -⟩ := idx_facts t
  funext y
  show V c main_v56 (((cfg2.win 1).blk t).view.emb y) = _
  refine congrArg (V c main_v56) (funext fun a => Fin.ext ?_)
  match a with
  | ⟨0, _⟩ => show win2_1.index t (0 : Fin 2) * 1 + 1 * (y 0).val = (y 0).val; omega
  | ⟨1, _⟩ => show win2_1.index t (1 : Fin 2) * 64 + 1 * (y 1).val = (y 1).val; omega

/-- The staged head weights are the whole matrix. -/
theorem blk2 (c : Dev nD) (t : Fin cfg2.N) : iblk2 V c 2 t = V c main_arg6 := by
  obtain ⟨-, -, -, -, e0, e1, -⟩ := idx_facts t
  funext y
  show V c main_arg6 (((cfg2.win 2).blk t).view.emb y) = _
  refine congrArg (V c main_arg6) (funext fun a => Fin.ext ?_)
  match a with
  | ⟨0, _⟩ => show win2_2.index t (0 : Fin 2) * 64 + 1 * (y 0).val = (y 0).val; omega
  | ⟨1, _⟩ => show win2_2.index t (1 : Fin 2) * 1 + 1 * (y 1).val = (y 1).val; omega

/-- The staged head bias is the whole one-entry array. -/
theorem blk3 (c : Dev nD) (t : Fin cfg2.N) : iblk2 V c 3 t = V c main_v57 := by
  obtain ⟨-, -, -, -, -, -, e0, e1, -⟩ := idx_facts t
  funext y
  show V c main_v57 (((cfg2.win 3).blk t).view.emb y) = _
  refine congrArg (V c main_v57) (funext fun a => Fin.ext ?_)
  match a with
  | ⟨0, _⟩ => show win2_3.index t (0 : Fin 2) * 1 + 1 * (y 0).val = (y 0).val; omega
  | ⟨1, _⟩ => show win2_3.index t (1 : Fin 2) * 1 + 1 * (y 1).val = (y 1).val; omega

/-- What the region's output is to hold: `max (A + b, 0) · W + c` of the arrays the region is entered with. -/
def G (c : Dev nD) : Arr 100000 1 := head (V c main_v55) (V c main_v56) (V c main_arg6) (V c main_v57)

/-- What point `t` writes back is block `t` of `G`. -/
theorem flushed_eq (c : Dev nD) (t : Fin cfg2.N) :
    (dat2 V c).flushed 4 t = ((cfg2.win 4).blk t).view.read (Elt Ideal) (G V c) := by
  show (cfg2.win 4).cut (grid2.coords t) ((dat2 V c).after 4 t) = _
  rw [after2_4]
  unfold out2_4
  rw [View.canon_unit_zero hz]
  simp only [View.ld_unit_zero (S := S10000x64) hz, View.ld_unit_zero (S := S1x64) hz, View.ld_unit_zero (S := S64x1) hz,
    View.ld_unit_zero (S := S1x1) hz]
  obtain ⟨-, -, -, -, -, -, -, -, e0, e1⟩ := idx_facts t
  funext j
  obtain ⟨r, d, rfl⟩ : ∃ (r : Fin 10000) (d : Fin 1), j = ix2 r d := ⟨j 0, j 1, eq_ix2 j⟩
  show k2_pay1 (iblk2 V c 0 t) (iblk2 V c 1 t) (iblk2 V c 2 t) (iblk2 V c 3 t) (ix2 r d) = G V c (((cfg2.win 4).blk t).view.emb (ix2 r d))
  have e : ((cfg2.win 4).blk t).view.emb (ix2 r d) = ix2 (rowOf t r) d := by
    funext a; apply Fin.ext
    match a with
    | ⟨0, _⟩ => show win2_4.index t (0 : Fin 2) * 10000 + 1 * r.val = t.val * 10000 + r.val; omega
    | ⟨1, _⟩ => show win2_4.index t (1 : Fin 2) * 1 + 1 * d.val = d.val; omega
  rw [e]
  refine (congrFun (pay_eq (iblk2 V c 0 t) (iblk2 V c 1 t) (iblk2 V c 2 t) (iblk2 V c 3 t)) (ix2 r d)).trans ?_
  rw [blk1 V c t, blk2 V c t, blk3 V c t]
  exact head_rows (rowOf t) (V c main_v55) (iblk2 V c 0 t) (V c main_v56) (V c main_arg6) (V c main_v57)
    (fun r d => blk0 V c t r d) r d

/-- An index of the output array is in point `t`'s block iff each coordinate is in the block's range on its axis. -/
theorem mem_blk (t : Fin cfg2.N) (i : S100000x1.Idx) :
    i ∈ ((cfg2.win 4).blk t).view.set ↔ ∀ a : Fin 2, win2_4.index t a * S10000x1.size a ≤ (i a).val ∧ (i a).val < win2_4.index t a * S10000x1.size a + S10000x1.size a := by
  show i ∈ ((View.whole main_v58).slice (win2_4.rect t)).set ↔ _
  rw [View.set_slice_whole, Rect.mem_set_unit]
  exact Iff.rfl

/-- The ten blocks of rows tile the output: row `r` is in the block of point `r / 10000`. -/
theorem cover (i : S100000x1.Idx) : ∃ t : Fin cfg2.N, (cfg2.win 4).flush t = true ∧ i ∈ ((cfg2.win 4).blk t).view.set := by
  have hi0 : (i 0).val < 100000 := (i 0).isLt
  have hi1 : (i 1).val < 1 := (i 1).isLt
  obtain ⟨t, ht⟩ : ∃ t : Fin cfg2.N, t.val = (i 0).val / 10000 :=
    ⟨⟨(i 0).val / 10000, by have h : cfg2.N = 10 := N_2; rw [h]; omega⟩, rfl⟩
  obtain ⟨-, -, -, -, -, -, -, -, e0, e1⟩ := idx_facts t
  refine ⟨t, flush2_4 t, ?_⟩
  rw [mem_blk]
  intro a
  match a with
  | ⟨0, _⟩ => show win2_4.index t (0 : Fin 2) * 10000 ≤ (i 0).val ∧ (i 0).val < win2_4.index t (0 : Fin 2) * 10000 + 10000; omega
  | ⟨1, _⟩ => show win2_4.index t (1 : Fin 2) * 1 ≤ (i 1).val ∧ (i 1).val < win2_4.index t (1 : Fin 2) * 1 + 1; omega

/-- The output array when the region returns. -/
theorem final (c : Dev nD) : (dat2 V c).arrAt 4 cfg2.N = G V c :=
  (dat2 V c).arrAt_eq_of_cover 4 (G V c) (fun t _ => flushed_eq V c t) cover

/-- The input arrays when the region returns: as entered. -/
theorem kept (c : Dev nD) (w : Fin cfg2.W) (hw : w ≠ 4) : (dat2 V c).arrAt w cfg2.N = V c (Pipeline.arrRef spec2 w) := by
  match w, hw with
  | ⟨0, _⟩, _ => exact ((dat2 V c).arrAt_in 0 rfl _).trans (A_eq2 V c 0)
  | ⟨1, _⟩, _ => exact ((dat2 V c).arrAt_in 1 rfl _).trans (A_eq2 V c 1)
  | ⟨2, _⟩, _ => exact ((dat2 V c).arrAt_in 2 rfl _).trans (A_eq2 V c 2)
  | ⟨3, _⟩, _ => exact ((dat2 V c).arrAt_in 3 rfl _).trans (A_eq2 V c 3)
  | ⟨4, _⟩, h => exact absurd rfl h

end Cert.KernelIdeal.Region2

end
-- ==== Proof.LibRegionAsOp.lean ====
/-
  A pipelined region seen from outside is one operation on the core's buffers.

  When a region returns, the core's buffer contents are the entry contents with each of the region's arrays
  replaced by what the pipeline leaves in it (`Pipeline.withArrays`).  If every array but one ends as it was
  entered (the input windows) and the remaining one ends at the value some operation `op` — one that writes
  exactly that array's buffer — computes from the entry contents, then the region's effect on the whole
  valuation IS `op.result`.  A program that alternates host operations and such regions is then, as far as
  buffer contents go, a straight line of operations, and the contents after it are `StableHlo.after` of that
  line.  Also: the fold over a concatenation of two lines is the fold over the second after the first.
-/
import Idealize.ShloMosaic.Lib.Pipeline.FrameSuffix
import Idealize.ShloMosaic.Lib.StableHlo.Run

noncomputable section

namespace Cert.Lib

open Idealize.ShloMosaic Idealize.ShloMosaic.TcCoe Idealize.ShloMosaic.Pipeline

variable {nD : Nat} {τ : Topo} {sig : RefSig} {Val : EltTy → Type}

/-- The region's exit contents are one operation's result of its entry contents: the operation writes exactly
    the buffer of array `wo` (`hw`), the pipeline leaves in that array the operation's value (`hout`), and
    every other array of the region ends holding its entry contents (`hin`). -/
theorem withArrays_eq_result {gr W : Nat} (win : Fin W → WinSpec sig gr) (hinj : Function.Injective (arrRef win))
    (c : Dev nD) (V : Valuation τ sig Val) (A : (w : Fin W) → Buf Val ((win w).arr.view.loc (c.tc : Thread nD τ)))
    (op : HloOp τ sig Val) (wo : Fin W)
    (hw : op.writes = {Proc.devRef .tc (arrRef win wo)})
    (hout : A wo = op.result V (Proc.devRef .tc (arrRef win wo)))
    (hin : ∀ w, w ≠ wo → A w = V (Proc.devRef .tc (arrRef win w))) :
    withArrays win c V A = op.result V := by
  funext b
  by_cases h : ∃ w, Proc.devRef (τ := τ) .tc (arrRef win w) = b
  · obtain ⟨w, rfl⟩ := h
    rw [withArrays_arr win hinj]
    by_cases hwo : w = wo
    · subst hwo; exact hout
    · rw [hin w hwo, op.result_of_not_mem V]
      rw [hw, Finset.mem_singleton]
      exact fun e => hwo (hinj (Proc.devRef_injective _ e))
  · have hb : b ∉ op.writes := by
      rw [hw, Finset.mem_singleton]
      exact fun e => h ⟨wo, e.symm⟩
    rw [op.result_of_not_mem V hb]
    unfold withArrays
    rw [dif_neg h]

/-- The contents after two lines run one after the other. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

/-- One operation as a line. -/
theorem after_singleton (op : HloOp τ sig Val) (V : Valuation τ sig Val) :
    StableHlo.after [op] V = op.result V := rfl

end Cert.Lib

end
-- ==== Proof.KernelLine.lean ====
/-
  The idealized kernel program as one straight line of operations on the core's buffers.

  Seen from outside, each of the three pipelined regions replaces the contents of one array by a function of the
  contents of its input arrays and leaves every other buffer as it was: it acts as one operation.  Written in the
  host's own spelling these operations are: the plain product of the node features and the first weights; the plain
  product of `max (aggregated + bias, 0)` and the second weights; and the same with the head's weights, plus the
  head's bias.  The biases reach the regions reshaped to one row, so the host spelling first flattens them back to
  vectors.  The buffer contents after the whole program are then the fold of host operations and these three
  operations over the launch memory.
-/
import proofs.«158448_j1477468750494_2_alg».proof.Proof.Gen.KernelIdeal.Frame
import proofs.«158448_j1477468750494_2_alg».proof.Proof.Region0
import proofs.«158448_j1477468750494_2_alg».proof.Proof.Region1
import proofs.«158448_j1477468750494_2_alg».proof.Proof.Region2
import proofs.«158448_j1477468750494_2_alg».proof.Proof.LibRegionAsOp
import Idealize.ShloMosaic.Lib.StableHlo.Run

set_option maxRecDepth 16384

noncomputable section

namespace Cert.KernelIdeal.Line

open Idealize.ShloMosaic Idealize.ShloMosaic.TcCoe Idealize.ShloMosaic.ValueIdx Idealize.SL.Sem
open Idealize.ShloMosaic.StableHlo (after_cons after_nil)
open Cert.KernelIdeal Cert.KernelIdeal.Gen Cert.GCN Cert.Layers Cert.Dense

/-! ## Shape facts of the host spelling -/

theorem bc_vec64 : S64.BroadcastsInDim S1x64 (![1] : Fin 1 → Fin S1x64.rank) := by decide
theorem bc_row64 : S1x64.BroadcastsInDim S100000x64 (![0, 1] : Fin 2 → Fin S100000x64.rank) := by decide
theorem bc_vec1 : S1.BroadcastsInDim S1x1 (![1] : Fin 1 → Fin S1x1.rank) := by decide
theorem bc_row1 : S1x1.BroadcastsInDim S100000x1 (![0, 1] : Fin 2 → Fin S100000x1.rank) := by decide

/-! ## The three dense steps in the host's spelling -/

/-- The first transform: the plain product. -/
def lin0 (x : FVec Ideal S100000x4 .f32) (w : FVec Ideal S4x64 .f32) : FVec Ideal S100000x64 .f32 :=
  Host.dotGeneral (DotDims.plain 100000 4 64) none x w

/-- Bias, maximum with zero, second transform. -/
def lin1 (agg : FVec Ideal S100000x64 .f32) (b : FVec Ideal S64 .f32) (w : FVec Ideal S64x64 .f32) :
    FVec Ideal S100000x64 .f32 :=
  Host.dotGeneral (DotDims.plain 100000 64 64) none
    (maximumf (addf agg (broadcastInDim S100000x64 ![0, 1] bc_row64 (broadcastInDim S1x64 ![1] bc_vec64 b)))
      (broadcastInDim S100000x64 ![] bcast_S_S100000x64 (constant (F := Ideal) S_ .f32 0x00000000#32))) w

/-- Bias, maximum with zero, the head's transform, the head's bias. -/
def lin2 (agg : FVec Ideal S100000x64 .f32) (b : FVec Ideal S64 .f32) (w : FVec Ideal S64x1 .f32)
    (c₀ : FVec Ideal S1 .f32) : FVec Ideal S100000x1 .f32 :=
  addf
    (Host.dotGeneral (DotDims.plain 100000 64 1) none
      (maximumf (addf agg (broadcastInDim S100000x64 ![0, 1] bc_row64 (broadcastInDim S1x64 ![1] bc_vec64 b)))
        (broadcastInDim S100000x64 ![] bcast_S_S100000x64 (constant (F := Ideal) S_ .f32 0x00000000#32))) w)
    (broadcastInDim S100000x1 ![0, 1] bc_row1 (broadcastInDim S1x1 ![1] bc_vec1 c₀))

theorem lin0_eq (x : FVec Ideal S100000x4 .f32) (w : FVec Ideal S4x64 .f32) : (lin0 x w : Arr 100000 64) = mm x w :=
  Cert.HostLayers.hostDot_plain _ rfl none x w

theorem lin1_eq (agg : FVec Ideal S100000x64 .f32) (b : FVec Ideal S64 .f32) (w : FVec Ideal S64x64 .f32) :
    (lin1 agg b w : Arr 100000 64) = act agg (asRow b) w :=
  host_act (DotDims.plain 100000 64 64) rfl bc_vec64 bc_row64 bcast_S_S100000x64 agg b w

theorem lin2_eq (agg : FVec Ideal S100000x64 .f32) (b : FVec Ideal S64 .f32) (w : FVec Ideal S64x1 .f32)
    (c₀ : FVec Ideal S1 .f32) : (lin2 agg b w c₀ : Arr 100000 1) = head agg (asRow b) w (asRow c₀) := by
  unfold lin2 head
  rw [Cert.HostLayers.host_addRow _ c₀ bc_vec1 bc_row1]
  rw [host_act (DotDims.plain 100000 64 1) rfl bc_vec64 bc_row64 bcast_S_S100000x64 agg b w]

/-! ## The biases as the regions find them

The host operation just before the second region reshapes the first bias to one row, and the two just before the
head's region reshape the second bias and the head's bias; none of the operations in between writes a bias vector. -/

theorem bias1 (X : Valuation τ sig (Elt Ideal)) :
    (StableHlo.after hostOps1 X (Proc.devRef .tc main_v41) : Arr 1 64)
      = asRow (StableHlo.after hostOps1 X (Proc.devRef .tc main_arg3)) := by
  dsimp only [hostOps1]
  after_results_simp
  exact Cert.HostLayers.reshape_asRow (X (Proc.devRef .tc main_arg3)) shapeCasts_S64_S1x64

theorem bias2 (X : Valuation τ sig (Elt Ideal)) :
    (StableHlo.after hostOps2 X (Proc.devRef .tc main_v56) : Arr 1 64)
      = asRow (StableHlo.after hostOps2 X (Proc.devRef .tc main_arg5)) := by
  dsimp only [hostOps2]
  after_results_simp
  exact Cert.HostLayers.reshape_asRow (X (Proc.devRef .tc main_arg5)) shapeCasts_S64_S1x64

theorem bias3 (X : Valuation τ sig (Elt Ideal)) :
    (StableHlo.after hostOps2 X (Proc.devRef .tc main_v57) : Arr 1 1)
      = asRow (StableHlo.after hostOps2 X (Proc.devRef .tc main_arg7)) := by
  dsimp only [hostOps2]
  after_results_simp
  exact Cert.HostLayers.reshape_asRow (X (Proc.devRef .tc main_arg7)) shapeCasts_S1_S1x1

/-! ## The regions as operations -/

/-- Region 0: the product of the node features and the first weights into its output array. -/
def op0 : HloOp τ sig (Elt Ideal) :=
  StableHlo.binary main_arg0 main_arg2 main_v27
    (lin0 : (⟨S100000x4, .f32⟩ : BufTy).Contents (Elt Ideal) → (⟨S4x64, .f32⟩ : BufTy).Contents (Elt Ideal) → (⟨S100000x64, .f32⟩ : BufTy).Contents (Elt Ideal))

/-- Region 1: bias, maximum with zero and the second transform of the aggregated features. -/
def op1 : HloOp τ sig (Elt Ideal) :=
  StableHlo.ternary main_v40 main_arg3 main_arg4 main_v42
    (lin1 : (⟨S100000x64, .f32⟩ : BufTy).Contents (Elt Ideal) → (⟨S64, .f32⟩ : BufTy).Contents (Elt Ideal) → (⟨S64x64, .f32⟩ : BufTy).Contents (Elt Ideal) → (⟨S100000x64, .f32⟩ : BufTy).Contents (Elt Ideal))

/-- Region 2: bias, maximum with zero, the head's transform and the head's bias. -/
def op2 : HloOp τ sig (Elt Ideal) :=
  StableHlo.quaternary main_v55 main_arg5 main_arg6 main_arg7 main_v58
    (lin2 : (⟨S100000x64, .f32⟩ : BufTy).Contents (Elt Ideal) → (⟨S64, .f32⟩ : BufTy).Contents (Elt Ideal) → (⟨S64x1, .f32⟩ : BufTy).Contents (Elt Ideal) → (⟨S1, .f32⟩ : BufTy).Contents (Elt Ideal) → (⟨S100000x1, .f32⟩ : BufTy).Contents (Elt Ideal))

variable (m : (ℓ : Loc nD τ sig) → Buf (Elt Ideal) ℓ) (ρ : Dev nD → PrngReg)

/-- Region 0's exit contents are `op0` of its entry contents. -/
theorem W2_eq (c : Dev nD) : W2 m ρ c = op0.result (StableHlo.after hostOps0 (W0 m ρ c)) := by
  unfold W2
  refine Cert.Lib.withArrays_eq_result spec0 launch0.win.arr_inj c _ _ op0 2 rfl ?_ (fun w hw => Region0.kept (V1 m ρ) c w hw)
  refine (Region0.final (V1 m ρ) c).trans ?_
  unfold op0
  rw [StableHlo.binary_result]
  exact (lin0_eq _ _).symm

/-- Region 1's exit contents are `op1` of its entry contents. -/
theorem W4_eq (c : Dev nD) : W4 m ρ c = op1.result (StableHlo.after hostOps1 (W2 m ρ c)) := by
  unfold W4
  refine Cert.Lib.withArrays_eq_result spec1 launch1.win.arr_inj c _ _ op1 3 rfl ?_ (fun w hw => Region1.kept (V3 m ρ) c w hw)
  refine (Region1.final (V3 m ρ) c).trans ?_
  unfold op1
  rw [StableHlo.ternary_result, lin1_eq, ← bias1]
  rfl

/-- Region 2's exit contents are `op2` of its entry contents. -/
theorem W6_eq (c : Dev nD) : W6 m ρ c = op2.result (StableHlo.after hostOps2 (W4 m ρ c)) := by
  unfold W6
  refine Cert.Lib.withArrays_eq_result spec2 launch2.win.arr_inj c _ _ op2 4 rfl ?_ (fun w hw => Region2.kept (V5 m ρ) c w hw)
  refine (Region2.final (V5 m ρ) c).trans ?_
  unfold op2
  rw [StableHlo.quaternary_result, lin2_eq, ← bias2, ← bias3]
  rfl

/-- The contents after the whole program: host operations and the three regions' operations, folded over the launch
    memory. -/
theorem W7_eq (c : Dev nD) :
    W7 m ρ c = StableHlo.after hostOps3 (op2.result (StableHlo.after hostOps2 (op1.result (StableHlo.after hostOps1
      (op0.result (StableHlo.after hostOps0 (W0 m ρ c))))))) := by
  show StableHlo.after hostOps3 (W6 m ρ c) = _
  rw [W6_eq, W4_eq, W2_eq]

end Cert.KernelIdeal.Line

end
-- ==== Proof.Bridge.lean ====
/-
  The kernel program's result is the reference's result, as one function of the argument arrays.

  With its three regions read as operations in the host's spelling, the kernel program applies to the arguments
  the very operations the reference applies, in the same order: the edge lists with self loops appended, the
  degree by scatter-add of ones, its inverse square root gathered at both ends of every edge, and per layer the
  transform, the gather along sources, the scaling, the scatter-add along destinations, the bias and the maximum
  with zero, and at the end the head.  The reference recomputes the edge lists and the normalisation for its
  second layer where the kernel reuses them; recomputing gives the same arrays.  So the two composed terms are one
  term, and the equation closes by unfolding both.
-/
import proofs.«158448_j1477468750494_2_alg».proof.Proof.KernelLine
import proofs.«158448_j1477468750494_2_alg».proof.Proof.Gen.ReferenceIdeal.Read
import Idealize.ShloMosaic.Lib.StableHlo.Run

set_option maxRecDepth 16384

noncomputable section

namespace Cert.Bridge

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

set_option maxHeartbeats 4000000 in
/-- The result buffer after the kernel program holds the reference's composed function of the argument arrays. -/
theorem kernel_result (c : Dev nD) :
    W7 m ρ c (Proc.devRef .tc main_v59)
      = Cert.ReferenceIdeal.Read.val_main_v90 (F := Ideal)
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  rw [Cert.KernelIdeal.Line.W7_eq]
  show _ = Cert.ReferenceIdeal.Read.val_main_v90 (F := Ideal)
          (W0 m ρ c (Proc.devRef .tc main_arg0)) (W0 m ρ c (Proc.devRef .tc main_arg1))
          (W0 m ρ c (Proc.devRef .tc main_arg2)) (W0 m ρ c (Proc.devRef .tc main_arg3))
          (W0 m ρ c (Proc.devRef .tc main_arg4)) (W0 m ρ c (Proc.devRef .tc main_arg5))
          (W0 m ρ c (Proc.devRef .tc main_arg6)) (W0 m ρ c (Proc.devRef .tc main_arg7))
  generalize W0 m ρ c = V0
  unfold Cert.KernelIdeal.Line.op0 Cert.KernelIdeal.Line.op1 Cert.KernelIdeal.Line.op2
  dsimp only [hostOps0, hostOps1, hostOps2, hostOps3]
  after_results_simp
  simp only [Cert.KernelIdeal.Line.lin0, Cert.KernelIdeal.Line.lin1, Cert.KernelIdeal.Line.lin2]
  rfl

end Cert.Bridge

end
-- ==== Proof.lean ====
/-
  A two-layer graph convolution with a linear head: the kernel program against its reference, at the ideal values.

  Both programs append a self loop to every node of the edge list, count the degree of every destination by a
  scatter-add of ones, take its inverse square root, and weigh edge `(s, d)` by the product of the values at `s` and
  `d`.  A layer multiplies the node features by its weights, gathers the rows at the edges' sources, scales them by
  the edge weights, scatter-adds them at the destinations, adds the bias and takes the maximum with zero; the head
  multiplies by a one-column matrix and adds its bias.

  The kernel program computes the three matrix products in pipelined regions, ten blocks of 10000 rows each, with the
  bias and the maximum fused in front of the second and third product; the gathers and scatter-adds stay host
  operations, the same ones the reference uses.  At the ideal values a region's output array ends holding the
  product (with bias and maximum) of the WHOLE arrays it was entered with, because these functions are row-wise and
  the blocks tile the rows (Region0, Region1, Region2 over LibDenseLayer).  Each region is then one operation on the
  buffers, the kernel program one straight line (KernelLine), and its result the reference's function of the
  arguments (Bridge).  No law of the extended reals is used beyond reading both spellings of a product as the same
  sum, so the finiteness of the inputs is never opened.  The ideal pass rewrote nothing, so there is nothing to
  preserve; the three frames are the generated ones.
-/
import proofs.«158448_j1477468750494_2_alg».proof.Defs
import proofs.«158448_j1477468750494_2_alg».proof.Proof.Gen.Kernel
import proofs.«158448_j1477468750494_2_alg».proof.Proof.Gen.Kernel.Frame
import proofs.«158448_j1477468750494_2_alg».proof.Proof.Gen.KernelIdeal
import proofs.«158448_j1477468750494_2_alg».proof.Proof.Gen.KernelIdeal.Frame
import proofs.«158448_j1477468750494_2_alg».proof.Proof.Gen.ReferenceIdeal
import proofs.«158448_j1477468750494_2_alg».proof.Proof.Gen.Pre_finite_inputs
import proofs.«158448_j1477468750494_2_alg».proof.Proof.Gen.ReferenceIdeal.Run
import proofs.«158448_j1477468750494_2_alg».proof.Proof.Gen.ReferenceIdeal.Read
import proofs.«158448_j1477468750494_2_alg».proof.Proof.KernelRun
import proofs.«158448_j1477468750494_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result buffer at the reference's composed function of the argument arrays: the kernel
    program by its straight-line reading, the reference by its own run, the two memories agreeing on the arguments. -/
theorem algebraic : Cert.algebraic_KernelIdeal_ReferenceIdeal := by
  intro m ρ m' ρ' _ hagree
  refine ⟨fun c => Cert.ReferenceIdeal.Read.val_main_v90 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.Bridge.kernel_result m ρ c), (h c).2⟩)
      (Cert.KernelIdeal.RunValue.run m ρ)
  · refine (θ_run Cert.ReferenceIdeal.defs _ _).mono (fun _ h c => ⟨?_, (h c).2⟩)
      (Cert.ReferenceIdeal.Value.run (F := Ideal) m' ρ')
    obtain ⟨a0, a1, a2, a3, a4, a5, a6, a7⟩ := hagree c
    rw [(h c).1, Cert.ReferenceIdeal.Read.val_main_v90_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
